-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x300000 : Shape := ⟨2, ![2, 300000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x256 .f32) (main_arg1 : IVec S2x300000 32) (main_arg2 : FVec F S256x256 .f32) (main_arg3 : FVec F S256 .f32) (main_arg4 : FVec F S256x128 .f32) (main_arg5 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S100000x256 : Shape := ⟨2, ![100000, 256]⟩
abbrev S2x300000 : Shape := ⟨2, ![2, 300000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S100000 : Shape := ⟨1, ![100000]⟩
abbrev S1x300000 : Shape := ⟨2, ![1, 300000]⟩
abbrev S300000 : Shape := ⟨1, ![300000]⟩
abbrev S400000 : Shape := ⟨1, ![400000]⟩
abbrev S_ : Shape := ⟨0, ![]⟩
abbrev S400000x1 : Shape := ⟨2, ![400000, 1]⟩
abbrev S2000x256 : Shape := ⟨2, ![2000, 256]⟩
abbrev S400000x256 : Shape := ⟨2, ![400000, 256]⟩
abbrev S1x256 : Shape := ⟨2, ![1, 256]⟩
abbrev S100000x128 : Shape := ⟨2, ![100000, 128]⟩
abbrev S2000x128 : Shape := ⟨2, ![2000, 128]⟩
abbrev S400000x128 : Shape := ⟨2, ![400000, 128]⟩
abbrev S1x128 : Shape := ⟨2, ![1, 128]⟩

abbrev nBuf : Space → Nat
  | .hbm => 89
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x300000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S100000, .i32⟩
  | .hbm, ⟨7, _⟩ => ⟨S1x300000, .i32⟩
  | .hbm, ⟨8, _⟩ => ⟨S300000, .i32⟩
  | .hbm, ⟨9, _⟩ => ⟨S400000, .i32⟩
  | .hbm, ⟨10, _⟩ => ⟨S1x300000, .i32⟩
  | .hbm, ⟨11, _⟩ => ⟨S300000, .i32⟩
  | .hbm, ⟨12, _⟩ => ⟨S400000, .i32⟩
  | .hbm, ⟨13, _⟩ => ⟨S_, .f32⟩
  | .hbm, ⟨14, _⟩ => ⟨S400000, .f32⟩
  | .hbm, ⟨15, _⟩ => ⟨S_, .f32⟩
  | .hbm, ⟨16, _⟩ => ⟨S100000, .f32⟩
  | .hbm, ⟨17, _⟩ => ⟨S400000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S400000, .i32⟩
  | .hbm, ⟨29, _⟩ => ⟨S400000, .i1⟩
  | .hbm, ⟨30, _⟩ => ⟨S_, .i32⟩
  | .hbm, ⟨31, _⟩ => ⟨S400000, .i32⟩
  | .hbm, ⟨32, _⟩ => ⟨S400000, .i32⟩
  | .hbm, ⟨33, _⟩ => ⟨S400000, .i32⟩
  | .hbm, ⟨34, _⟩ => ⟨S400000x1, .i32⟩
  | .hbm, ⟨35, _⟩ => ⟨S400000, .f32⟩
  | .hbm, ⟨36, _⟩ => ⟨S_, .i32⟩
  | .hbm, ⟨37, _⟩ => ⟨S400000, .i32⟩
  | .hbm, ⟨38, _⟩ => ⟨S400000, .i1⟩
  | .hbm, ⟨39, _⟩ => ⟨S_, .i32⟩
  | .hbm, ⟨40, _⟩ => ⟨S400000, .i32⟩
  | .hbm, ⟨41, _⟩ => ⟨S400000, .i32⟩
  | .hbm, ⟨42, _⟩ => ⟨S400000, .i32⟩
  | .hbm, ⟨43, _⟩ => ⟨S400000x1, .i32⟩
  | .hbm, ⟨44, _⟩ => ⟨S400000, .f32⟩
  | .hbm, ⟨45, _⟩ => ⟨S400000, .f32⟩
  | .hbm, ⟨46, _⟩ => ⟨S100000x256, .f32⟩
  | .hbm, ⟨47, _⟩ => ⟨S_, .i32⟩
  | .hbm, ⟨48, _⟩ => ⟨S400000, .i32⟩
  | .hbm, ⟨49, _⟩ => ⟨S400000, .i1⟩
  | .hbm, ⟨50, _⟩ => ⟨S_, .i32⟩
  | .hbm, ⟨51, _⟩ => ⟨S400000, .i32⟩
  | .hbm, ⟨52, _⟩ => ⟨S400000, .i32⟩
  | .hbm, ⟨53, _⟩ => ⟨S400000, .i32⟩
  | .hbm, ⟨54, _⟩ => ⟨S400000x1, .i32⟩
  | .hbm, ⟨55, _⟩ => ⟨S400000x256, .f32⟩
  | .hbm, ⟨56, _⟩ => ⟨S400000x1, .f32⟩
  | .hbm, ⟨57, _⟩ => ⟨S400000x256, .f32⟩
  | .hbm, ⟨58, _⟩ => ⟨S400000x256, .f32⟩
  | .hbm, ⟨59, _⟩ => ⟨S_, .f32⟩
  | .hbm, ⟨60, _⟩ => ⟨S100000x256, .f32⟩
  | .hbm, ⟨61, _⟩ => ⟨S400000x1, .i32⟩
  | .hbm, ⟨62, _⟩ => ⟨S100000x256, .f32⟩
  | .hbm, ⟨63, _⟩ => ⟨S1x256, .f32⟩
  | .hbm, ⟨64, _⟩ => ⟨S100000x256, .f32⟩
  | .hbm, ⟨65, _⟩ => ⟨S100000x256, .f32⟩
  | .hbm, ⟨66, _⟩ => ⟨S_, .f32⟩
  | .hbm, ⟨67, _⟩ => ⟨S100000x256, .f32⟩
  | .hbm, ⟨68, _⟩ => ⟨S100000x256, .f32⟩
  | .hbm, ⟨69, _⟩ => ⟨S100000x128, .f32⟩
  | .hbm, ⟨70, _⟩ => ⟨S_, .i32⟩
  | .hbm, ⟨71, _⟩ => ⟨S400000, .i32⟩
  | .hbm, ⟨72, _⟩ => ⟨S400000, .i1⟩
  | .hbm, ⟨73, _⟩ => ⟨S_, .i32⟩
  | .hbm, ⟨74, _⟩ => ⟨S400000, .i32⟩
  | .hbm, ⟨75, _⟩ => ⟨S400000, .i32⟩
  | .hbm, ⟨76, _⟩ => ⟨S400000, .i32⟩
  | .hbm, ⟨77, _⟩ => ⟨S400000x1, .i32⟩
  | .hbm, ⟨78, _⟩ => ⟨S400000x128, .f32⟩
  | .hbm, ⟨79, _⟩ => ⟨S400000x1, .f32⟩
  | .hbm, ⟨80, _⟩ => ⟨S400000x128, .f32⟩
  | .hbm, ⟨81, _⟩ => ⟨S400000x128, .f32⟩
  | .hbm, ⟨82, _⟩ => ⟨S_, .f32⟩
  | .hbm, ⟨83, _⟩ => ⟨S100000x128, .f32⟩
  | .hbm, ⟨84, _⟩ => ⟨S400000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x300000_S1x300000_0_0 : S2x300000.Slices ![0, 0] S1x300000
  shapeCasts_S1x300000_S300000 : S1x300000.ShapeCasts S300000
  concatenates_S300000_S100000_S400000_d0 : Shape.Concatenates [S300000, S100000] S400000 0
  slices_S2x300000_S1x300000_1_0 : S2x300000.Slices ![1, 0] S1x300000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S400000x1_S400000x256_0_1 : S400000x1.BroadcastsInDim S400000x256 (![0, 1] : Fin 2 → Fin S400000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S400000x1_S400000x128_0_1 : S400000x1.BroadcastsInDim S400000x128 (![0, 1] : Fin 2 → Fin S400000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  dot_S2000x256_S256x256_S2000x256_1_0_0_1_n_n_wf : DotDims.WF S2000x256 S256x256 S2000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S2000x256_S256x128_S2000x128_1_0_0_1_n_n_wf : DotDims.WF S2000x256 S256x128 S2000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x300000 : Shape := ⟨2, ![2, 300000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S100000 : Shape := ⟨1, ![100000]⟩
abbrev S1x300000 : Shape := ⟨2, ![1, 300000]⟩
abbrev S300000 : Shape := ⟨1, ![300000]⟩
abbrev S400000 : Shape := ⟨1, ![400000]⟩
abbrev S_ : Shape := ⟨0, ![]⟩
abbrev S400000x1 : Shape := ⟨2, ![400000, 1]⟩
abbrev S400000x256 : Shape := ⟨2, ![400000, 256]⟩
abbrev S1x256 : Shape := ⟨2, ![1, 256]⟩
abbrev S100000x128 : Shape := ⟨2, ![100000, 128]⟩
abbrev S400000x128 : Shape := ⟨2, ![400000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x300000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S100000, .i32⟩
  | .hbm, ⟨7, _⟩ => ⟨S1x300000, .i32⟩
  | .hbm, ⟨8, _⟩ => ⟨S300000, .i32⟩
  | .hbm, ⟨9, _⟩ => ⟨S400000, .i32⟩
  | .hbm, ⟨10, _⟩ => ⟨S1x300000, .i32⟩
  | .hbm, ⟨11, _⟩ => ⟨S300000, .i32⟩
  | .hbm, ⟨12, _⟩ => ⟨S400000, .i32⟩
  | .hbm, ⟨13, _⟩ => ⟨S_, .f32⟩
  | .hbm, ⟨14, _⟩ => ⟨S400000, .f32⟩
  | .hbm, ⟨15, _⟩ => ⟨S_, .f32⟩
  | .hbm, ⟨16, _⟩ => ⟨S100000, .f32⟩
  | .hbm, ⟨17, _⟩ => ⟨S400000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S400000, .i32⟩
  | .hbm, ⟨29, _⟩ => ⟨S400000, .i1⟩
  | .hbm, ⟨30, _⟩ => ⟨S_, .i32⟩
  | .hbm, ⟨31, _⟩ => ⟨S400000, .i32⟩
  | .hbm, ⟨32, _⟩ => ⟨S400000, .i32⟩
  | .hbm, ⟨33, _⟩ => ⟨S400000, .i32⟩
  | .hbm, ⟨34, _⟩ => ⟨S400000x1, .i32⟩
  | .hbm, ⟨35, _⟩ => ⟨S400000, .f32⟩
  | .hbm, ⟨36, _⟩ => ⟨S_, .i32⟩
  | .hbm, ⟨37, _⟩ => ⟨S400000, .i32⟩
  | .hbm, ⟨38, _⟩ => ⟨S400000, .i1⟩
  | .hbm, ⟨39, _⟩ => ⟨S_, .i32⟩
  | .hbm, ⟨40, _⟩ => ⟨S400000, .i32⟩
  | .hbm, ⟨41, _⟩ => ⟨S400000, .i32⟩
  | .hbm, ⟨42, _⟩ => ⟨S400000, .i32⟩
  | .hbm, ⟨43, _⟩ => ⟨S400000x1, .i32⟩
  | .hbm, ⟨44, _⟩ => ⟨S400000, .f32⟩
  | .hbm, ⟨45, _⟩ => ⟨S400000, .f32⟩
  | .hbm, ⟨46, _⟩ => ⟨S100000x256, .f32⟩
  | .hbm, ⟨47, _⟩ => ⟨S_, .i32⟩
  | .hbm, ⟨48, _⟩ => ⟨S400000, .i32⟩
  | .hbm, ⟨49, _⟩ => ⟨S400000, .i1⟩
  | .hbm, ⟨50, _⟩ => ⟨S_, .i32⟩
  | .hbm, ⟨51, _⟩ => ⟨S400000, .i32⟩
  | .hbm, ⟨52, _⟩ => ⟨S400000, .i32⟩
  | .hbm, ⟨53, _⟩ => ⟨S400000, .i32⟩
  | .hbm, ⟨54, _⟩ => ⟨S400000x1, .i32⟩
  | .hbm, ⟨55, _⟩ => ⟨S400000x256, .f32⟩
  | .hbm, ⟨56, _⟩ => ⟨S400000x1, .f32⟩
  | .hbm, ⟨57, _⟩ => ⟨S400000x256, .f32⟩
  | .hbm, ⟨58, _⟩ => ⟨S400000x256, .f32⟩
  | .hbm, ⟨59, _⟩ => ⟨S_, .f32⟩
  | .hbm, ⟨60, _⟩ => ⟨S100000x256, .f32⟩
  | .hbm, ⟨61, _⟩ => ⟨S400000x1, .i32⟩
  | .hbm, ⟨62, _⟩ => ⟨S100000x256, .f32⟩
  | .hbm, ⟨63, _⟩ => ⟨S1x256, .f32⟩
  | .hbm, ⟨64, _⟩ => ⟨S100000x256, .f32⟩
  | .hbm, ⟨65, _⟩ => ⟨S100000x256, .f32⟩
  | .hbm, ⟨66, _⟩ => ⟨S_, .f32⟩
  | .hbm, ⟨67, _⟩ => ⟨S100000x256, .f32⟩
  | .hbm, ⟨68, _⟩ => ⟨S100000x256, .f32⟩
  | .hbm, ⟨69, _⟩ => ⟨S100000x128, .f32⟩
  | .hbm, ⟨70, _⟩ => ⟨S_, .i32⟩
  | .hbm, ⟨71, _⟩ => ⟨S400000, .i32⟩
  | .hbm, ⟨72, _⟩ => ⟨S400000, .i1⟩
  | .hbm, ⟨73, _⟩ => ⟨S_, .i32⟩
  | .hbm, ⟨74, _⟩ => ⟨S400000, .i32⟩
  | .hbm, ⟨75, _⟩ => ⟨S400000, .i32⟩
  | .hbm, ⟨76, _⟩ => ⟨S400000, .i32⟩
  | .hbm, ⟨77, _⟩ => ⟨S400000x1, .i32⟩
  | .hbm, ⟨78, _⟩ => ⟨S400000x128, .f32⟩
  | .hbm, ⟨79, _⟩ => ⟨S400000x1, .f32⟩
  | .hbm, ⟨80, _⟩ => ⟨S400000x128, .f32⟩
  | .hbm, ⟨81, _⟩ => ⟨S400000x128, .f32⟩
  | .hbm, ⟨82, _⟩ => ⟨S_, .f32⟩
  | .hbm, ⟨83, _⟩ => ⟨S100000x128, .f32⟩
  | .hbm, ⟨84, _⟩ => ⟨S400000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  concatenates_S300000_S100000_S400000_d0 : Shape.Concatenates [S300000, S100000] S400000 0
  slices_S2x300000_S1x300000_1_0 : S2x300000.Slices ![1, 0] S1x300000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S400000x1_S400000x128_0_1 : S400000x1.BroadcastsInDim S400000x128 (![0, 1] : Fin 2 → Fin S400000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  dot_S100000x256_S256x256_S100000x256_1_0_0_1_n_n_wf : DotDims.WF S100000x256 S256x256 S100000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S100000x256_S256x128_S100000x128_1_0_0_1_n_n_wf : DotDims.WF S100000x256 S256x128 S100000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf

class Facts : Prop extends Facts₀ where

variable [Facts]
-- ==== Proof.KRun.lean ====
/-
  The idealized kernel's run with its RESULT named. The program is eight segments — three stretches of host
  operations, the first matrix product's region, two stretches, the second product's region, a last stretch — and the
  generated frame folds the TensorCore's buffer contents through them: `Gen.W0` at launch up to `Gen.W8` at the
  return. That fold's last thread state holds EVERY unscoped buffer at `W8`'s contents, the result buffer
  `main_v64` among them; the frame claim keeps only the six argument buffers of it. Here the same run is read at the
  result buffer as well: every weakly fair execution terminates with `main_v64` at `W8 … main_v64` and the arguments
  as launched. What `W8 … main_v64` IS, as a function of the arguments, is the next modules' business.
-/
import proofs.«100452_j84619445665914_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is one of the unscoped buffers the last thread state holds. -/
theorem result_mem_uc : Proc.devRef .tc main_v64 ∈ Pipeline.ucRefs τ sig := mem_uc main_v64 (by decide)

set_option backward.isDefEq.respectTransparency.types false in
/-- Every weakly fair execution of the program terminates, nothing faulting, with the result buffer at the
    fold's last contents `W8` and every argument buffer as launched: the segments' run, the last thread state read
    against the final memory at the result buffer and at each argument. -/
theorem run_value : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ result_mem_uc,
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.MatSum.lean ====
/-
  A matrix product as a plain sum. Both of the kernel's bodies multiply a 2000-row block of the left factor by the
  whole right factor into a ZERO accumulator, after narrowing both factors to bf16; the reference multiplies the whole
  100000-row left factor by the same right factor in one `dot_general`. On the extended reals the narrowing is the
  identity and each of the four products, read at an output index `i`, is
      ∑ k < 256, A (i 0, k) · B (k, i 1)
  — the zero accumulator adds nothing (`0 + s = s` holds at every extended real, infinite ones included), and a record's
  contraction index, which has one axis of extent 256, is re-indexed by its position `k`. No finiteness is used: nothing
  is distributed or cancelled, the sums are only re-indexed.
-/
import proofs.«100452_j84619445665914_1_alg».proof.Proof.Gen.KernelIdeal.Skeleton
import proofs.«100452_j84619445665914_1_alg».proof.Proof.Gen.ReferenceIdeal
import Idealize.ShloMosaic.PureOps.Ideal.Laws
import Idealize.ShloMosaic.Lib.ValueIdx
import Idealize.ShloMosaic.Lib.Pipeline.Value

noncomputable section

namespace Cert.MatSum

open Idealize.ShloMosaic

/-! ## The four records' operand indices, and their sums over the 256 positions -/

/-! ### `Cert.KernelIdeal.dot_S2000x256_S256x256_S2000x256_1_0_0_1_n_n` -/

/-- The left factor's index at output index `i` and contraction position `k`: row `i 0`, column `k`. -/
abbrev lidxK0 (i : Cert.KernelIdeal.S2000x256.Idx) (k : Fin 256) : Cert.KernelIdeal.S2000x256.Idx := fun a => match a with
  | ⟨0, _⟩ => ⟨(i 0).val, (i 0).isLt⟩
  | ⟨1, _⟩ => ⟨k.val, k.isLt⟩
/-- The right factor's index: row `k`, column `i 1`. -/
abbrev ridxK0 (i : Cert.KernelIdeal.S2000x256.Idx) (k : Fin 256) : Cert.KernelIdeal.S256x256.Idx := fun a => match a with
  | ⟨0, _⟩ => ⟨k.val, k.isLt⟩
  | ⟨1, _⟩ => ⟨(i 1).val, (i 1).isLt⟩

theorem l0K0 (i : Cert.KernelIdeal.S2000x256.Idx) (q : Cert.KernelIdeal.dot_S2000x256_S256x256_S2000x256_1_0_0_1_n_n.contr.Idx) : (Cert.KernelIdeal.dot_S2000x256_S256x256_S2000x256_1_0_0_1_n_n.lhsIdx i q 0).val = (i 0).val := by
  unfold DotDims.lhsIdx
  rw [dif_neg (show ¬(0 : Fin Cert.KernelIdeal.S2000x256.rank) ∈ Cert.KernelIdeal.dot_S2000x256_S256x256_S2000x256_1_0_0_1_n_n.lhsBatch by decide), dif_pos (show (0 : Fin Cert.KernelIdeal.S2000x256.rank) ∈ Cert.KernelIdeal.dot_S2000x256_S256x256_S2000x256_1_0_0_1_n_n.lhsNonContracting by decide)]
  rfl
theorem l1K0 (i : Cert.KernelIdeal.S2000x256.Idx) (q : Cert.KernelIdeal.dot_S2000x256_S256x256_S2000x256_1_0_0_1_n_n.contr.Idx) : (Cert.KernelIdeal.dot_S2000x256_S256x256_S2000x256_1_0_0_1_n_n.lhsIdx i q 1).val = (q ⟨0, by decide⟩).val :=
  Cert.KernelIdeal.dot_S2000x256_S256x256_S2000x256_1_0_0_1_n_n.lhsIdx_val_of_single rfl i q
theorem r0K0 (i : Cert.KernelIdeal.S2000x256.Idx) (q : Cert.KernelIdeal.dot_S2000x256_S256x256_S2000x256_1_0_0_1_n_n.contr.Idx) : (Cert.KernelIdeal.dot_S2000x256_S256x256_S2000x256_1_0_0_1_n_n.rhsIdx i q 0).val = (q ⟨0, by decide⟩).val :=
  Cert.KernelIdeal.dot_S2000x256_S256x256_S2000x256_1_0_0_1_n_n.rhsIdx_val_of_single rfl i q
theorem r1K0 (i : Cert.KernelIdeal.S2000x256.Idx) (q : Cert.KernelIdeal.dot_S2000x256_S256x256_S2000x256_1_0_0_1_n_n.contr.Idx) : (Cert.KernelIdeal.dot_S2000x256_S256x256_S2000x256_1_0_0_1_n_n.rhsIdx i q 1).val = (i 1).val := by
  unfold DotDims.rhsIdx
  rw [dif_neg (show ¬(1 : Fin Cert.KernelIdeal.S256x256.rank) ∈ Cert.KernelIdeal.dot_S2000x256_S256x256_S2000x256_1_0_0_1_n_n.rhsBatch by decide), dif_pos (show (1 : Fin Cert.KernelIdeal.S256x256.rank) ∈ Cert.KernelIdeal.dot_S2000x256_S256x256_S2000x256_1_0_0_1_n_n.rhsNonContracting by decide)]
  rfl

/-- The record's sum over its contraction index is the sum over the 256 positions of the shared axis. -/
theorem sumK0 (A : Cert.KernelIdeal.S2000x256.Idx → EReal) (B : Cert.KernelIdeal.S256x256.Idx → EReal) (i : Cert.KernelIdeal.S2000x256.Idx) :
    ∑ q : Cert.KernelIdeal.dot_S2000x256_S256x256_S2000x256_1_0_0_1_n_n.contr.Idx, A (Cert.KernelIdeal.dot_S2000x256_S256x256_S2000x256_1_0_0_1_n_n.lhsIdx i q) * B (Cert.KernelIdeal.dot_S2000x256_S256x256_S2000x256_1_0_0_1_n_n.rhsIdx i q) = ∑ k : Fin 256, A (lidxK0 i k) * B (ridxK0 i k) := by
  rw [← Equiv.sum_comp (ValueIdx.contrEquiv1 Cert.KernelIdeal.dot_S2000x256_S256x256_S2000x256_1_0_0_1_n_n 256 rfl rfl).symm]
  refine Finset.sum_congr rfl fun k _ => ?_
  have hk := ValueIdx.contrEquiv1_symm_val Cert.KernelIdeal.dot_S2000x256_S256x256_S2000x256_1_0_0_1_n_n 256 rfl rfl k
  have el : Cert.KernelIdeal.dot_S2000x256_S256x256_S2000x256_1_0_0_1_n_n.lhsIdx i ((ValueIdx.contrEquiv1 Cert.KernelIdeal.dot_S2000x256_S256x256_S2000x256_1_0_0_1_n_n 256 rfl rfl).symm k) = lidxK0 i k := funext fun a => Fin.ext (by
    match a with
    | ⟨0, _⟩ => exact l0K0 _ _
    | ⟨1, _⟩ => exact (l1K0 _ _).trans hk)
  have er : Cert.KernelIdeal.dot_S2000x256_S256x256_S2000x256_1_0_0_1_n_n.rhsIdx i ((ValueIdx.contrEquiv1 Cert.KernelIdeal.dot_S2000x256_S256x256_S2000x256_1_0_0_1_n_n 256 rfl rfl).symm k) = ridxK0 i k := funext fun a => Fin.ext (by
    match a with
    | ⟨0, _⟩ => exact (r0K0 _ _).trans hk
    | ⟨1, _⟩ => exact r1K0 _ _)
  rw [el, er]

/-! ### `Cert.KernelIdeal.dot_S2000x256_S256x128_S2000x128_1_0_0_1_n_n` -/

/-- The left factor's index at output index `i` and contraction position `k`: row `i 0`, column `k`. -/
abbrev lidxK1 (i : Cert.KernelIdeal.S2000x128.Idx) (k : Fin 256) : Cert.KernelIdeal.S2000x256.Idx := fun a => match a with
  | ⟨0, _⟩ => ⟨(i 0).val, (i 0).isLt⟩
  | ⟨1, _⟩ => ⟨k.val, k.isLt⟩
/-- The right factor's index: row `k`, column `i 1`. -/
abbrev ridxK1 (i : Cert.KernelIdeal.S2000x128.Idx) (k : Fin 256) : Cert.KernelIdeal.S256x128.Idx := fun a => match a with
  | ⟨0, _⟩ => ⟨k.val, k.isLt⟩
  | ⟨1, _⟩ => ⟨(i 1).val, (i 1).isLt⟩

theorem l0K1 (i : Cert.KernelIdeal.S2000x128.Idx) (q : Cert.KernelIdeal.dot_S2000x256_S256x128_S2000x128_1_0_0_1_n_n.contr.Idx) : (Cert.KernelIdeal.dot_S2000x256_S256x128_S2000x128_1_0_0_1_n_n.lhsIdx i q 0).val = (i 0).val := by
  unfold DotDims.lhsIdx
  rw [dif_neg (show ¬(0 : Fin Cert.KernelIdeal.S2000x256.rank) ∈ Cert.KernelIdeal.dot_S2000x256_S256x128_S2000x128_1_0_0_1_n_n.lhsBatch by decide), dif_pos (show (0 : Fin Cert.KernelIdeal.S2000x256.rank) ∈ Cert.KernelIdeal.dot_S2000x256_S256x128_S2000x128_1_0_0_1_n_n.lhsNonContracting by decide)]
  rfl
theorem l1K1 (i : Cert.KernelIdeal.S2000x128.Idx) (q : Cert.KernelIdeal.dot_S2000x256_S256x128_S2000x128_1_0_0_1_n_n.contr.Idx) : (Cert.KernelIdeal.dot_S2000x256_S256x128_S2000x128_1_0_0_1_n_n.lhsIdx i q 1).val = (q ⟨0, by decide⟩).val :=
  Cert.KernelIdeal.dot_S2000x256_S256x128_S2000x128_1_0_0_1_n_n.lhsIdx_val_of_single rfl i q
theorem r0K1 (i : Cert.KernelIdeal.S2000x128.Idx) (q : Cert.KernelIdeal.dot_S2000x256_S256x128_S2000x128_1_0_0_1_n_n.contr.Idx) : (Cert.KernelIdeal.dot_S2000x256_S256x128_S2000x128_1_0_0_1_n_n.rhsIdx i q 0).val = (q ⟨0, by decide⟩).val :=
  Cert.KernelIdeal.dot_S2000x256_S256x128_S2000x128_1_0_0_1_n_n.rhsIdx_val_of_single rfl i q
theorem r1K1 (i : Cert.KernelIdeal.S2000x128.Idx) (q : Cert.KernelIdeal.dot_S2000x256_S256x128_S2000x128_1_0_0_1_n_n.contr.Idx) : (Cert.KernelIdeal.dot_S2000x256_S256x128_S2000x128_1_0_0_1_n_n.rhsIdx i q 1).val = (i 1).val := by
  unfold DotDims.rhsIdx
  rw [dif_neg (show ¬(1 : Fin Cert.KernelIdeal.S256x128.rank) ∈ Cert.KernelIdeal.dot_S2000x256_S256x128_S2000x128_1_0_0_1_n_n.rhsBatch by decide), dif_pos (show (1 : Fin Cert.KernelIdeal.S256x128.rank) ∈ Cert.KernelIdeal.dot_S2000x256_S256x128_S2000x128_1_0_0_1_n_n.rhsNonContracting by decide)]
  rfl

/-- The record's sum over its contraction index is the sum over the 256 positions of the shared axis. -/
theorem sumK1 (A : Cert.KernelIdeal.S2000x256.Idx → EReal) (B : Cert.KernelIdeal.S256x128.Idx → EReal) (i : Cert.KernelIdeal.S2000x128.Idx) :
    ∑ q : Cert.KernelIdeal.dot_S2000x256_S256x128_S2000x128_1_0_0_1_n_n.contr.Idx, A (Cert.KernelIdeal.dot_S2000x256_S256x128_S2000x128_1_0_0_1_n_n.lhsIdx i q) * B (Cert.KernelIdeal.dot_S2000x256_S256x128_S2000x128_1_0_0_1_n_n.rhsIdx i q) = ∑ k : Fin 256, A (lidxK1 i k) * B (ridxK1 i k) := by
  rw [← Equiv.sum_comp (ValueIdx.contrEquiv1 Cert.KernelIdeal.dot_S2000x256_S256x128_S2000x128_1_0_0_1_n_n 256 rfl rfl).symm]
  refine Finset.sum_congr rfl fun k _ => ?_
  have hk := ValueIdx.contrEquiv1_symm_val Cert.KernelIdeal.dot_S2000x256_S256x128_S2000x128_1_0_0_1_n_n 256 rfl rfl k
  have el : Cert.KernelIdeal.dot_S2000x256_S256x128_S2000x128_1_0_0_1_n_n.lhsIdx i ((ValueIdx.contrEquiv1 Cert.KernelIdeal.dot_S2000x256_S256x128_S2000x128_1_0_0_1_n_n 256 rfl rfl).symm k) = lidxK1 i k := funext fun a => Fin.ext (by
    match a with
    | ⟨0, _⟩ => exact l0K1 _ _
    | ⟨1, _⟩ => exact (l1K1 _ _).trans hk)
  have er : Cert.KernelIdeal.dot_S2000x256_S256x128_S2000x128_1_0_0_1_n_n.rhsIdx i ((ValueIdx.contrEquiv1 Cert.KernelIdeal.dot_S2000x256_S256x128_S2000x128_1_0_0_1_n_n 256 rfl rfl).symm k) = ridxK1 i k := funext fun a => Fin.ext (by
    match a with
    | ⟨0, _⟩ => exact (r0K1 _ _).trans hk
    | ⟨1, _⟩ => exact r1K1 _ _)
  rw [el, er]

/-! ### `Cert.ReferenceIdeal.dot_S100000x256_S256x256_S100000x256_1_0_0_1_n_n` -/

/-- The left factor's index at output index `i` and contraction position `k`: row `i 0`, column `k`. -/
abbrev lidxR0 (i : Cert.ReferenceIdeal.S100000x256.Idx) (k : Fin 256) : Cert.ReferenceIdeal.S100000x256.Idx := fun a => match a with
  | ⟨0, _⟩ => ⟨(i 0).val, (i 0).isLt⟩
  | ⟨1, _⟩ => ⟨k.val, k.isLt⟩
/-- The right factor's index: row `k`, column `i 1`. -/
abbrev ridxR0 (i : Cert.ReferenceIdeal.S100000x256.Idx) (k : Fin 256) : Cert.ReferenceIdeal.S256x256.Idx := fun a => match a with
  | ⟨0, _⟩ => ⟨k.val, k.isLt⟩
  | ⟨1, _⟩ => ⟨(i 1).val, (i 1).isLt⟩

theorem l0R0 (i : Cert.ReferenceIdeal.S100000x256.Idx) (q : Cert.ReferenceIdeal.dot_S100000x256_S256x256_S100000x256_1_0_0_1_n_n.contr.Idx) : (Cert.ReferenceIdeal.dot_S100000x256_S256x256_S100000x256_1_0_0_1_n_n.lhsIdx i q 0).val = (i 0).val := by
  unfold DotDims.lhsIdx
  rw [dif_neg (show ¬(0 : Fin Cert.ReferenceIdeal.S100000x256.rank) ∈ Cert.ReferenceIdeal.dot_S100000x256_S256x256_S100000x256_1_0_0_1_n_n.lhsBatch by decide), dif_pos (show (0 : Fin Cert.ReferenceIdeal.S100000x256.rank) ∈ Cert.ReferenceIdeal.dot_S100000x256_S256x256_S100000x256_1_0_0_1_n_n.lhsNonContracting by decide)]
  rfl
theorem l1R0 (i : Cert.ReferenceIdeal.S100000x256.Idx) (q : Cert.ReferenceIdeal.dot_S100000x256_S256x256_S100000x256_1_0_0_1_n_n.contr.Idx) : (Cert.ReferenceIdeal.dot_S100000x256_S256x256_S100000x256_1_0_0_1_n_n.lhsIdx i q 1).val = (q ⟨0, by decide⟩).val :=
  Cert.ReferenceIdeal.dot_S100000x256_S256x256_S100000x256_1_0_0_1_n_n.lhsIdx_val_of_single rfl i q
theorem r0R0 (i : Cert.ReferenceIdeal.S100000x256.Idx) (q : Cert.ReferenceIdeal.dot_S100000x256_S256x256_S100000x256_1_0_0_1_n_n.contr.Idx) : (Cert.ReferenceIdeal.dot_S100000x256_S256x256_S100000x256_1_0_0_1_n_n.rhsIdx i q 0).val = (q ⟨0, by decide⟩).val :=
  Cert.ReferenceIdeal.dot_S100000x256_S256x256_S100000x256_1_0_0_1_n_n.rhsIdx_val_of_single rfl i q
theorem r1R0 (i : Cert.ReferenceIdeal.S100000x256.Idx) (q : Cert.ReferenceIdeal.dot_S100000x256_S256x256_S100000x256_1_0_0_1_n_n.contr.Idx) : (Cert.ReferenceIdeal.dot_S100000x256_S256x256_S100000x256_1_0_0_1_n_n.rhsIdx i q 1).val = (i 1).val := by
  unfold DotDims.rhsIdx
  rw [dif_neg (show ¬(1 : Fin Cert.ReferenceIdeal.S256x256.rank) ∈ Cert.ReferenceIdeal.dot_S100000x256_S256x256_S100000x256_1_0_0_1_n_n.rhsBatch by decide), dif_pos (show (1 : Fin Cert.ReferenceIdeal.S256x256.rank) ∈ Cert.ReferenceIdeal.dot_S100000x256_S256x256_S100000x256_1_0_0_1_n_n.rhsNonContracting by decide)]
  rfl

/-- The record's sum over its contraction index is the sum over the 256 positions of the shared axis. -/
theorem sumR0 (A : Cert.ReferenceIdeal.S100000x256.Idx → EReal) (B : Cert.ReferenceIdeal.S256x256.Idx → EReal) (i : Cert.ReferenceIdeal.S100000x256.Idx) :
    ∑ q : Cert.ReferenceIdeal.dot_S100000x256_S256x256_S100000x256_1_0_0_1_n_n.contr.Idx, A (Cert.ReferenceIdeal.dot_S100000x256_S256x256_S100000x256_1_0_0_1_n_n.lhsIdx i q) * B (Cert.ReferenceIdeal.dot_S100000x256_S256x256_S100000x256_1_0_0_1_n_n.rhsIdx i q) = ∑ k : Fin 256, A (lidxR0 i k) * B (ridxR0 i k) := by
  rw [← Equiv.sum_comp (ValueIdx.contrEquiv1 Cert.ReferenceIdeal.dot_S100000x256_S256x256_S100000x256_1_0_0_1_n_n 256 rfl rfl).symm]
  refine Finset.sum_congr rfl fun k _ => ?_
  have hk := ValueIdx.contrEquiv1_symm_val Cert.ReferenceIdeal.dot_S100000x256_S256x256_S100000x256_1_0_0_1_n_n 256 rfl rfl k
  have el : Cert.ReferenceIdeal.dot_S100000x256_S256x256_S100000x256_1_0_0_1_n_n.lhsIdx i ((ValueIdx.contrEquiv1 Cert.ReferenceIdeal.dot_S100000x256_S256x256_S100000x256_1_0_0_1_n_n 256 rfl rfl).symm k) = lidxR0 i k := funext fun a => Fin.ext (by
    match a with
    | ⟨0, _⟩ => exact l0R0 _ _
    | ⟨1, _⟩ => exact (l1R0 _ _).trans hk)
  have er : Cert.ReferenceIdeal.dot_S100000x256_S256x256_S100000x256_1_0_0_1_n_n.rhsIdx i ((ValueIdx.contrEquiv1 Cert.ReferenceIdeal.dot_S100000x256_S256x256_S100000x256_1_0_0_1_n_n 256 rfl rfl).symm k) = ridxR0 i k := funext fun a => Fin.ext (by
    match a with
    | ⟨0, _⟩ => exact (r0R0 _ _).trans hk
    | ⟨1, _⟩ => exact r1R0 _ _)
  rw [el, er]

/-! ### `Cert.ReferenceIdeal.dot_S100000x256_S256x128_S100000x128_1_0_0_1_n_n` -/

/-- The left factor's index at output index `i` and contraction position `k`: row `i 0`, column `k`. -/
abbrev lidxR1 (i : Cert.ReferenceIdeal.S100000x128.Idx) (k : Fin 256) : Cert.ReferenceIdeal.S100000x256.Idx := fun a => match a with
  | ⟨0, _⟩ => ⟨(i 0).val, (i 0).isLt⟩
  | ⟨1, _⟩ => ⟨k.val, k.isLt⟩
/-- The right factor's index: row `k`, column `i 1`. -/
abbrev ridxR1 (i : Cert.ReferenceIdeal.S100000x128.Idx) (k : Fin 256) : Cert.ReferenceIdeal.S256x128.Idx := fun a => match a with
  | ⟨0, _⟩ => ⟨k.val, k.isLt⟩
  | ⟨1, _⟩ => ⟨(i 1).val, (i 1).isLt⟩

theorem l0R1 (i : Cert.ReferenceIdeal.S100000x128.Idx) (q : Cert.ReferenceIdeal.dot_S100000x256_S256x128_S100000x128_1_0_0_1_n_n.contr.Idx) : (Cert.ReferenceIdeal.dot_S100000x256_S256x128_S100000x128_1_0_0_1_n_n.lhsIdx i q 0).val = (i 0).val := by
  unfold DotDims.lhsIdx
  rw [dif_neg (show ¬(0 : Fin Cert.ReferenceIdeal.S100000x256.rank) ∈ Cert.ReferenceIdeal.dot_S100000x256_S256x128_S100000x128_1_0_0_1_n_n.lhsBatch by decide), dif_pos (show (0 : Fin Cert.ReferenceIdeal.S100000x256.rank) ∈ Cert.ReferenceIdeal.dot_S100000x256_S256x128_S100000x128_1_0_0_1_n_n.lhsNonContracting by decide)]
  rfl
theorem l1R1 (i : Cert.ReferenceIdeal.S100000x128.Idx) (q : Cert.ReferenceIdeal.dot_S100000x256_S256x128_S100000x128_1_0_0_1_n_n.contr.Idx) : (Cert.ReferenceIdeal.dot_S100000x256_S256x128_S100000x128_1_0_0_1_n_n.lhsIdx i q 1).val = (q ⟨0, by decide⟩).val :=
  Cert.ReferenceIdeal.dot_S100000x256_S256x128_S100000x128_1_0_0_1_n_n.lhsIdx_val_of_single rfl i q
theorem r0R1 (i : Cert.ReferenceIdeal.S100000x128.Idx) (q : Cert.ReferenceIdeal.dot_S100000x256_S256x128_S100000x128_1_0_0_1_n_n.contr.Idx) : (Cert.ReferenceIdeal.dot_S100000x256_S256x128_S100000x128_1_0_0_1_n_n.rhsIdx i q 0).val = (q ⟨0, by decide⟩).val :=
  Cert.ReferenceIdeal.dot_S100000x256_S256x128_S100000x128_1_0_0_1_n_n.rhsIdx_val_of_single rfl i q
theorem r1R1 (i : Cert.ReferenceIdeal.S100000x128.Idx) (q : Cert.ReferenceIdeal.dot_S100000x256_S256x128_S100000x128_1_0_0_1_n_n.contr.Idx) : (Cert.ReferenceIdeal.dot_S100000x256_S256x128_S100000x128_1_0_0_1_n_n.rhsIdx i q 1).val = (i 1).val := by
  unfold DotDims.rhsIdx
  rw [dif_neg (show ¬(1 : Fin Cert.ReferenceIdeal.S256x128.rank) ∈ Cert.ReferenceIdeal.dot_S100000x256_S256x128_S100000x128_1_0_0_1_n_n.rhsBatch by decide), dif_pos (show (1 : Fin Cert.ReferenceIdeal.S256x128.rank) ∈ Cert.ReferenceIdeal.dot_S100000x256_S256x128_S100000x128_1_0_0_1_n_n.rhsNonContracting by decide)]
  rfl

/-- The record's sum over its contraction index is the sum over the 256 positions of the shared axis. -/
theorem sumR1 (A : Cert.ReferenceIdeal.S100000x256.Idx → EReal) (B : Cert.ReferenceIdeal.S256x128.Idx → EReal) (i : Cert.ReferenceIdeal.S100000x128.Idx) :
    ∑ q : Cert.ReferenceIdeal.dot_S100000x256_S256x128_S100000x128_1_0_0_1_n_n.contr.Idx, A (Cert.ReferenceIdeal.dot_S100000x256_S256x128_S100000x128_1_0_0_1_n_n.lhsIdx i q) * B (Cert.ReferenceIdeal.dot_S100000x256_S256x128_S100000x128_1_0_0_1_n_n.rhsIdx i q) = ∑ k : Fin 256, A (lidxR1 i k) * B (ridxR1 i k) := by
  rw [← Equiv.sum_comp (ValueIdx.contrEquiv1 Cert.ReferenceIdeal.dot_S100000x256_S256x128_S100000x128_1_0_0_1_n_n 256 rfl rfl).symm]
  refine Finset.sum_congr rfl fun k _ => ?_
  have hk := ValueIdx.contrEquiv1_symm_val Cert.ReferenceIdeal.dot_S100000x256_S256x128_S100000x128_1_0_0_1_n_n 256 rfl rfl k
  have el : Cert.ReferenceIdeal.dot_S100000x256_S256x128_S100000x128_1_0_0_1_n_n.lhsIdx i ((ValueIdx.contrEquiv1 Cert.ReferenceIdeal.dot_S100000x256_S256x128_S100000x128_1_0_0_1_n_n 256 rfl rfl).symm k) = lidxR1 i k := funext fun a => Fin.ext (by
    match a with
    | ⟨0, _⟩ => exact l0R1 _ _
    | ⟨1, _⟩ => exact (l1R1 _ _).trans hk)
  have er : Cert.ReferenceIdeal.dot_S100000x256_S256x128_S100000x128_1_0_0_1_n_n.rhsIdx i ((ValueIdx.contrEquiv1 Cert.ReferenceIdeal.dot_S100000x256_S256x128_S100000x128_1_0_0_1_n_n 256 rfl rfl).symm k) = ridxR1 i k := funext fun a => Fin.ext (by
    match a with
    | ⟨0, _⟩ => exact (r0R1 _ _).trans hk
    | ⟨1, _⟩ => exact r1R1 _ _)
  rw [el, er]

/-! ## The kernel's two payloads and the reference's two products, at an index -/

/-- The first body's stored value at `j`: row `j 0` of its left block against column `j 1` of its right block. -/
theorem pay0_apply (x0 : Vec Ideal Cert.KernelIdeal.S2000x256 .f32) (x1 : Vec Ideal Cert.KernelIdeal.S256x256 .f32) (j : Cert.KernelIdeal.S2000x256.Idx) :
    Cert.KernelIdeal.Gen.k0_pay1 (F := Ideal) x0 x1 j = ∑ k : Fin 256, (x0 (lidxK0 j k) : EReal) * (x1 (ridxK0 j k) : EReal) := by
  unfold Cert.KernelIdeal.Gen.k0_pay1
  simp only [matmul]
  rw [Ideal.matmul_constant_zero_apply]
  simp only [truncf, Ideal.truncf_def]
  exact sumK0 x0 x1 j

/-- The second body's stored value at `j` (its left block passes through a shape cast to its own shape first). -/
theorem pay1_apply (x0 : Vec Ideal Cert.KernelIdeal.S2000x256 .f32) (x1 : Vec Ideal Cert.KernelIdeal.S256x128 .f32) (j : Cert.KernelIdeal.S2000x128.Idx) :
    Cert.KernelIdeal.Gen.k1_pay1 (F := Ideal) x0 x1 j = ∑ k : Fin 256, (x0 (lidxK1 j k) : EReal) * (x1 (ridxK1 j k) : EReal) := by
  unfold Cert.KernelIdeal.Gen.k1_pay1
  simp only [matmul, shapeCast_self]
  rw [Ideal.matmul_constant_zero_apply]
  simp only [truncf, Ideal.truncf_def]
  exact sumK1 x0 x1 j

/-- The reference's first product at `i`. -/
theorem dot0_apply (A : FVec Ideal Cert.ReferenceIdeal.S100000x256 .f32) (B : FVec Ideal Cert.ReferenceIdeal.S256x256 .f32) (i : Cert.ReferenceIdeal.S100000x256.Idx) :
    Host.dotGeneral Cert.ReferenceIdeal.dot_S100000x256_S256x256_S100000x256_1_0_0_1_n_n none A B i = ∑ k : Fin 256, (A (lidxR0 i k) : EReal) * (B (ridxR0 i k) : EReal) := by
  simp only [Host.dotGeneral]
  rw [Ideal.dotGeneral_apply]
  exact sumR0 A B i

/-- The reference's second product at `i`. -/
theorem dot1_apply (A : FVec Ideal Cert.ReferenceIdeal.S100000x256 .f32) (B : FVec Ideal Cert.ReferenceIdeal.S256x128 .f32) (i : Cert.ReferenceIdeal.S100000x128.Idx) :
    Host.dotGeneral Cert.ReferenceIdeal.dot_S100000x256_S256x128_S100000x128_1_0_0_1_n_n none A B i = ∑ k : Fin 256, (A (lidxR1 i k) : EReal) * (B (ridxR1 i k) : EReal) := by
  simp only [Host.dotGeneral]
  rw [Ideal.dotGeneral_apply]
  exact sumR1 A B i

end Cert.MatSum

end
-- ==== Proof.Region0.lean ====
/-
  The FIRST region's result array. The region walks 50 grid points; point `t` stages rows 2000·t … 2000·t + 1999 of
  the left factor (all 256 columns), the whole 256 × 256 right factor, computes their product into a zero accumulator
  and writes it back as rows 2000·t … 2000·t + 1999 of the result. So block `t` of what is written is block `t` of the
  ONE whole product — entry (r, q) of either is ∑ k, left (2000·t + r, k) · right (k, q) — and the fifty blocks tile
  the 100000 rows, hence the array the region leaves IS the whole product of the arrays it found. Stated at the
  region's entry contents `V`, whatever they are.
-/
import proofs.«100452_j84619445665914_1_alg».proof.Proof.Gen.KernelIdeal.Frame
import proofs.«100452_j84619445665914_1_alg».proof.Proof.MatSum
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The whole product: the reference's `dot_general` of the two factor arrays. -/
abbrev product (A : FVec Ideal S100000x256 .f32) (B : FVec Ideal S256x256 .f32) : FVec Ideal S100000x256 .f32 :=
  Host.dotGeneral (F := Ideal) Cert.ReferenceIdeal.dot_S100000x256_S256x256_S100000x256_1_0_0_1_n_n none A B

/-- The printed index maps over the 50 grid points: the left factor's and the result's blocks are block `t` of
    their rows and the only block of their columns; the right factor's block is the whole array. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the whole product: at row `r` of the block and column `q` both are
    the sum over `k` of the left factor at (2000·t + r, k) times the right factor at (k, q). -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin]
  simp only [View.ld_unit_zero (S := S2000x256) origin, View.ld_unit_zero (S := S256x256) origin]
  obtain ⟨e00, e01, e10, e11, e20, e21⟩ := index_maps t
  funext j
  refine (MatSum.pay0_apply (iblk0 V c 0 t) (iblk0 V c 1 t) j).trans ?_
  refine Eq.trans ?_ (MatSum.dot0_apply (V c main_arg0) (V c main_arg2) (((cfg0.win 2).blk t).view.emb j)).symm
  refine Finset.sum_congr rfl fun k _ => ?_
  have hA : iblk0 V c 0 t (MatSum.lidxK0 j k) = V c main_arg0 (MatSum.lidxR0 (((cfg0.win 2).blk t).view.emb j) k) := by
    show V c main_arg0 (((cfg0.win 0).blk t).view.emb (MatSum.lidxK0 j k)) = _
    refine congrArg (V c main_arg0) ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have hB : iblk0 V c 1 t (MatSum.ridxK0 j k) = V c main_arg2 (MatSum.ridxR0 (((cfg0.win 2).blk t).view.emb j) k) := by
    show V c main_arg2 (((cfg0.win 1).blk t).view.emb (MatSum.ridxK0 j k)) = _
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega
  rw [hA, hB]

/-- An index of the result array is in point `t`'s block iff each coordinate is in the block's range on its axis. -/
theorem mem_block (t : Fin cfg0.N) (i : S100000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- The fifty blocks of 2000 rows cover the 100000 rows: row `r` is in block `r / 2000`. -/
theorem cover (i : S100000x256.Idx) : ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, e20, e21⟩ := index_maps t
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- THE RESULT ARRAY when the region is left: the whole product of the two factor arrays as the region found them. -/
theorem result (c : Dev nD) : (dat0 V c).arrAt 2 cfg0.N = product (V c main_arg0) (V c main_arg2) :=
  (dat0 V c).arrAt_eq_of_cover 2 _ (fun t _ => flushed_eq V c t) cover

end Cert.KernelIdeal.Region0

end
-- ==== Proof.Region1.lean ====
/-
  The SECOND region's result array: as the first's, with a 256 × 128 right factor. Point `t` of 50 stages rows
  2000·t … 2000·t + 1999 of the left factor (the first layer's output after its maximum with zero), the whole right
  factor, and writes their product back as the same rows of the result; block `t` of what is written is block `t` of the
  one whole product, and the fifty blocks tile the rows. Stated at the region's entry contents `V`, whatever they are.
-/
import proofs.«100452_j84619445665914_1_alg».proof.Proof.Gen.KernelIdeal.Frame
import proofs.«100452_j84619445665914_1_alg».proof.Proof.MatSum
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The whole product: the reference's `dot_general` of the two factor arrays. -/
abbrev product (A : FVec Ideal S100000x256 .f32) (B : FVec Ideal S256x128 .f32) : FVec Ideal S100000x128 .f32 :=
  Host.dotGeneral (F := Ideal) Cert.ReferenceIdeal.dot_S100000x256_S256x128_S100000x128_1_0_0_1_n_n none A B

/-- The printed index maps over the 50 grid points: the left factor's and the result's blocks are block `t` of
    their rows and the only block of their columns; the right factor's block is the whole array. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the whole product: at row `r` of the block and column `q` both are
    the sum over `k` of the left factor at (2000·t + r, k) times the right factor at (k, q). -/
theorem flushed_eq (c : Dev nD) (t : Fin cfg1.N) :
    (dat1 V c).flushed 2 t = ((cfg1.win 2).blk t).view.read (Elt Ideal) (product (V c main_v47) (V c main_arg4)) := by
  show (cfg1.win 2).cut (grid1.coords t) ((dat1 V c).after 2 t) = _
  rw [after1_2]
  unfold out1_2
  rw [View.canon_unit_zero origin]
  simp only [View.ld_unit_zero (S := S2000x256) origin, View.ld_unit_zero (S := S256x128) origin]
  obtain ⟨e00, e01, e10, e11, e20, e21⟩ := index_maps t
  funext j
  refine (MatSum.pay1_apply (iblk1 V c 0 t) (iblk1 V c 1 t) j).trans ?_
  refine Eq.trans ?_ (MatSum.dot1_apply (V c main_v47) (V c main_arg4) (((cfg1.win 2).blk t).view.emb j)).symm
  refine Finset.sum_congr rfl fun k _ => ?_
  have hA : iblk1 V c 0 t (MatSum.lidxK1 j k) = V c main_v47 (MatSum.lidxR1 (((cfg1.win 2).blk t).view.emb j) k) := by
    show V c main_v47 (((cfg1.win 0).blk t).view.emb (MatSum.lidxK1 j k)) = _
    refine congrArg (V c main_v47) ?_
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * k.val = k.val; omega
  have hB : iblk1 V c 1 t (MatSum.ridxK1 j k) = V c main_arg4 (MatSum.ridxR1 (((cfg1.win 2).blk t).view.emb j) k) := by
    show V c main_arg4 (((cfg1.win 1).blk t).view.emb (MatSum.ridxK1 j k)) = _
    refine congrArg (V c main_arg4) ?_
    funext a; apply Fin.ext
    match a with
    | ⟨0, _⟩ => show win1_1.index t (0 : Fin 2) * 256 + 1 * k.val = k.val; omega
    | ⟨1, _⟩ => show win1_1.index t (1 : Fin 2) * 128 + 1 * (j 1).val = win1_2.index t (1 : Fin 2) * 128 + 1 * (j 1).val; omega
  rw [hA, hB]

/-- An index of the result array is in point `t`'s block iff each coordinate is in the block's range on its axis. -/
theorem mem_block (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v48).slice (win1_2.rect t)).set ↔ _
  rw [View.set_slice_whole, Rect.mem_set_unit]
  exact Iff.rfl

/-- The fifty blocks of 2000 rows cover the 100000 rows: row `r` is in block `r / 2000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, e20, e21⟩ := index_maps t
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- THE RESULT ARRAY when the region is left: the whole product of the two factor arrays as the region found them. -/
theorem result (c : Dev nD) : (dat1 V c).arrAt 2 cfg1.N = product (V c main_v47) (V c main_arg4) :=
  (dat1 V c).arrAt_eq_of_cover 2 _ (fun t _ => flushed_eq V c t) cover

end Cert.KernelIdeal.Region1

end
-- ==== Proof.KValue.lean ====
/-
  The kernel's result as a function of the arguments, and that it is the reference's.
  The generated frame folds the TensorCore's buffer contents through the program's eight segments, `W0` (launch) …
  `W8` (return): a stretch of host operations rewrites the buffers it writes by its operations' functions and leaves the
  rest; a region leaves its three arrays at what its write-backs made of them and every other buffer alone. Read at the
  result buffer, the fold unwinds to ONE composed term of the six arguments: the last stretch's operations (gather by
  source node, scale by the edge weight, scatter-add by target node, add the bias) of the second region's result; that
  region's result is the whole product of what it found (the module on the second region), the left factor being the
  middle stretches' operations of the first region's result, which is the whole product of the first two arguments (the
  module on the first region); the node indices and the edge weights come from the first stretches' operations of
  the edge list alone.
  The reference is the SAME list of host operations with a `dot_general` where the kernel has a region, so its result is
  the same composed term, and the two are compared as terms: nothing of the gather, the scatter-add, the reciprocal
  square root or the comparisons is opened, and no finiteness of the inputs is used.
-/
import proofs.«100452_j84619445665914_1_alg».proof.Proof.Gen.KernelIdeal.Frame
import proofs.«100452_j84619445665914_1_alg».proof.Proof.Region0
import proofs.«100452_j84619445665914_1_alg».proof.Proof.Region1
import proofs.«100452_j84619445665914_1_alg».proof.Proof.RefRun
import Idealize.ShloMosaic.Lib.StableHlo.Run

set_option maxRecDepth 16384

noncomputable section

/-! ## The graph convolution's terms, as the reference spells them -/

namespace Cert.GraphTerms

open Cert.ReferenceIdeal Cert.ReferenceIdeal.Gen Idealize.ShloMosaic

/-- The source node of every edge: row 0 of the edge list, then one self-loop per node. -/
abbrev src (ei : IVec S2x300000 32) : IVec S400000 32 :=
  concatenate S400000 0 [⟨S300000, (shapeCast _ (extractStridedSlice S1x300000 ![0, 0] ei slices_S2x300000_S1x300000_0_0) shapeCasts_S1x300000_S300000)⟩, ⟨S100000, (iotaInDim S100000 32 0)⟩] concatenates_S300000_S100000_S400000_d0
/-- The target node of every edge: row 1 of the edge list, then the self-loops. -/
abbrev dst (ei : IVec S2x300000 32) : IVec S400000 32 :=
  concatenate S400000 0 [⟨S300000, (shapeCast _ (extractStridedSlice S1x300000 ![1, 0] ei slices_S2x300000_S1x300000_1_0) shapeCasts_S1x300000_S300000)⟩, ⟨S100000, (iotaInDim S100000 32 0)⟩] concatenates_S300000_S100000_S400000_d0
/-- Every node's degree: ones scatter-added at the edges' targets. -/
abbrev deg (ei : IVec S2x300000 32) : FVec Ideal S100000 .f32 :=
  Host.scatterAdd (F := Ideal) scatter_S100000_S400000x1_S400000_n_0_0_1 (broadcastInDim S100000 ![] bcast_S_S100000 (constant S_ .f32 0x00000000#32)) (broadcastInDim S400000x1 ![0] bcast_S400000_S400000x1_0 (dst ei)) (broadcastInDim S400000 ![] bcast_S_S400000 (constant S_ .f32 0x3F800000#32))
/-- Where the degree is positive. -/
abbrev positive (ei : IVec S2x300000 32) : IVec S100000 1 :=
  cmpf (F := Ideal) .ogt (deg ei) (broadcastInDim S100000 ![] bcast_S_S100000 (constant S_ .f32 0x00000000#32))
/-- The degree's reciprocal square root. -/
abbrev invSqrt (ei : IVec S2x300000 32) : FVec Ideal S100000 .f32 := Host.rsqrt (deg ei)
/-- A node index below zero counts from the end: 100000 is added to it. -/
abbrev wrap (idx : IVec S400000 32) : IVec S400000 32 :=
  select (cmpi .slt idx (broadcastInDim S400000 ![] bcast_S_S400000 (constantI S_ 32 0#32))) (addi idx (broadcastInDim S400000 ![] bcast_S_S400000 (constantI S_ 32 100000#32))) idx
/-- Every edge's weight: the product of its two end nodes' entries of `dv` (the degrees' reciprocal square roots,
    zero where the degree is not positive). -/
abbrev weight (dv : FVec Ideal S100000 .f32) (s d : IVec S400000 32) : FVec Ideal S400000 .f32 :=
  (mulf (Host.gather gather_S100000_S400000x1_S400000_n_0_n_n_0_1_1 dv (broadcastInDim S400000x1 ![0] bcast_S400000_S400000x1_0 (wrap s))) (Host.gather gather_S100000_S400000x1_S400000_n_0_n_n_0_1_1 dv (broadcastInDim S400000x1 ![0] bcast_S400000_S400000x1_0 (wrap d))))
/-- One layer at 256 features: the transformed features `T` gathered at the edges' sources, scaled by the edges' weights,
    scatter-added at the edges' targets; then the bias. -/
abbrev layer256 (T : FVec Ideal S100000x256 .f32) (s d : IVec S400000 32) (w : FVec Ideal S400000 .f32) (b : FVec Ideal S256 .f32) :
    FVec Ideal S100000x256 .f32 :=
  (addf (Host.scatterAdd scatter_S100000x256_S400000x1_S400000x256_1_0_0_1 (broadcastInDim S100000x256 ![] bcast_S_S100000x256 (constant S_ .f32 0x00000000#32)) (broadcastInDim S400000x1 ![0] bcast_S400000_S400000x1_0 d) (mulf (Host.gather gather_S100000x256_S400000x1_S400000x256_1_0_n_n_0_1_1256 T (broadcastInDim S400000x1 ![0] bcast_S400000_S400000x1_0 (wrap s))) (broadcastInDim S400000x256 ![0, 1] bcast_S400000x1_S400000x256_0_1 (broadcastInDim S400000x1 ![0] bcast_S400000_S400000x1_0 w)))) (broadcastInDim S100000x256 ![0, 1] bcast_S1x256_S100000x256_0_1 (broadcastInDim S1x256 ![1] bcast_S256_S1x256_1 b)))
/-- The same layer at 128 features. -/
abbrev layer128 (T : FVec Ideal S100000x128 .f32) (s d : IVec S400000 32) (w : FVec Ideal S400000 .f32) (b : FVec Ideal S128 .f32) :
    FVec Ideal S100000x128 .f32 :=
  addf (Host.scatterAdd scatter_S100000x128_S400000x1_S400000x128_1_0_0_1 (broadcastInDim S100000x128 ![] bcast_S_S100000x128 (constant S_ .f32 0x00000000#32)) (broadcastInDim S400000x1 ![0] bcast_S400000_S400000x1_0 d) (mulf (Host.gather gather_S100000x128_S400000x1_S400000x128_1_0_n_n_0_1_1128 T (broadcastInDim S400000x1 ![0] bcast_S400000_S400000x1_0 (wrap s))) (broadcastInDim S400000x128 ![0, 1] bcast_S400000x1_S400000x128_0_1 (broadcastInDim S400000x1 ![0] bcast_S400000_S400000x1_0 w)))) (broadcastInDim S100000x128 ![0, 1] bcast_S1x128_S100000x128_0_1 (broadcastInDim S1x128 ![1] bcast_S128_S1x128_1 b))
/-- The maximum with zero, entry by entry. -/
abbrev relu (x : FVec Ideal S100000x256 .f32) : FVec Ideal S100000x256 .f32 :=
  maximumf x (broadcastInDim S100000x256 ![] bcast_S_S100000x256 (constant S_ .f32 0x00000000#32))

end Cert.GraphTerms

namespace Cert.KernelIdeal.KValue

open Cert.KernelIdeal Cert.KernelIdeal.Gen Idealize.ShloMosaic Idealize.ShloMosaic.TcCoe Idealize.SL.Sem Idealize.ShloMosaic.StableHlo

/-- A buffer none of a stretch's operations writes keeps its contents across the stretch. -/
local macro "not_written" ops:ident : tactic => `(tactic| (
  refine after_of_forall_not_mem _ _ (List.forall_iff_forall_mem.mp ?_)
  simp only [$ops:ident, List.flatten_cons, List.flatten_nil, List.append_nil, List.cons_append, List.nil_append, List.Forall,
    nullary_writes, unary_writes, binary_writes, ternary_writes, quaternary_writes, reshape_writes, binaryIndexed_writes, Finset.mem_singleton]
  repeat' apply And.intro
  all_goals exact devRef_ne_of_ne (by decide)))

/-! Each stretch of host operations, from ANY contents `V` at its entry: what it leaves in the buffers read later, as the
    reference's term of what it found, and which of the buffers read later it leaves alone. -/

/-! ## The first stretch: the two node lists, and what the selection of the degrees' reciprocal square roots reads -/

theorem first_src (V : Valuation τ sig (Elt Ideal)) :
    after hostOps0 V (no_index (Proc.devRef .tc main_v3)) = GraphTerms.src (V (Proc.devRef .tc main_arg1)) := by
  conv_lhs => simp (disch := decide) only [hostOps0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
theorem first_dst (V : Valuation τ sig (Elt Ideal)) :
    after hostOps0 V (no_index (Proc.devRef .tc main_v6)) = GraphTerms.dst (V (Proc.devRef .tc main_arg1)) := by
  conv_lhs => simp (disch := decide) only [hostOps0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
theorem first_positive (V : Valuation τ sig (Elt Ideal)) :
    after hostOps0 V (no_index (Proc.devRef .tc main_v12)) = GraphTerms.positive (V (Proc.devRef .tc main_arg1)) := by
  conv_lhs => simp (disch := decide) only [hostOps0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
theorem first_invSqrt (V : Valuation τ sig (Elt Ideal)) :
    after hostOps0 V (no_index (Proc.devRef .tc main_v13)) = GraphTerms.invSqrt (V (Proc.devRef .tc main_arg1)) := by
  conv_lhs => simp (disch := decide) only [hostOps0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
theorem first_zero (V : Valuation τ sig (Elt Ideal)) :
    after hostOps0 V (no_index (Proc.devRef .tc main_cst_2)) = constant (F := Ideal) Cert.ReferenceIdeal.S_ .f32 0x00000000#32 := by
  conv_lhs => simp (disch := decide) only [hostOps0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
theorem first_keeps_main_arg0 (V : Valuation τ sig (Elt Ideal)) :
    after hostOps0 V (no_index (Proc.devRef .tc main_arg0)) = V (Proc.devRef .tc main_arg0) := by not_written hostOps0
theorem first_keeps_main_arg2 (V : Valuation τ sig (Elt Ideal)) :
    after hostOps0 V (no_index (Proc.devRef .tc main_arg2)) = V (Proc.devRef .tc main_arg2) := by not_written hostOps0
theorem first_keeps_main_arg3 (V : Valuation τ sig (Elt Ideal)) :
    after hostOps0 V (no_index (Proc.devRef .tc main_arg3)) = V (Proc.devRef .tc main_arg3) := by not_written hostOps0
theorem first_keeps_main_arg4 (V : Valuation τ sig (Elt Ideal)) :
    after hostOps0 V (no_index (Proc.devRef .tc main_arg4)) = V (Proc.devRef .tc main_arg4) := by not_written hostOps0
theorem first_keeps_main_arg5 (V : Valuation τ sig (Elt Ideal)) :
    after hostOps0 V (no_index (Proc.devRef .tc main_arg5)) = V (Proc.devRef .tc main_arg5) := by not_written hostOps0

/-! ## The selection (a called function of three operations) -/

theorem select_result (V : Valuation τ sig (Elt Ideal)) :
    after hostOps0_1 V (no_index (Proc.devRef .tc main_v14)) = select (V (Proc.devRef .tc main_v12)) (V (Proc.devRef .tc main_v13))
          (broadcastInDim Cert.ReferenceIdeal.S100000 ![] Cert.ReferenceIdeal.Gen.bcast_S_S100000 (id (V (Proc.devRef .tc main_cst_2)))) := by
  conv_lhs => simp (disch := decide) only [hostOps0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
theorem select_keeps_main_v3 (V : Valuation τ sig (Elt Ideal)) :
    after hostOps0_1 V (no_index (Proc.devRef .tc main_v3)) = V (Proc.devRef .tc main_v3) := by not_written hostOps0_1
theorem select_keeps_main_v6 (V : Valuation τ sig (Elt Ideal)) :
    after hostOps0_1 V (no_index (Proc.devRef .tc main_v6)) = V (Proc.devRef .tc main_v6) := by not_written hostOps0_1
theorem select_keeps_main_arg0 (V : Valuation τ sig (Elt Ideal)) :
    after hostOps0_1 V (no_index (Proc.devRef .tc main_arg0)) = V (Proc.devRef .tc main_arg0) := by not_written hostOps0_1
theorem select_keeps_main_arg2 (V : Valuation τ sig (Elt Ideal)) :
    after hostOps0_1 V (no_index (Proc.devRef .tc main_arg2)) = V (Proc.devRef .tc main_arg2) := by not_written hostOps0_1
theorem select_keeps_main_arg3 (V : Valuation τ sig (Elt Ideal)) :
    after hostOps0_1 V (no_index (Proc.devRef .tc main_arg3)) = V (Proc.devRef .tc main_arg3) := by not_written hostOps0_1
theorem select_keeps_main_arg4 (V : Valuation τ sig (Elt Ideal)) :
    after hostOps0_1 V (no_index (Proc.devRef .tc main_arg4)) = V (Proc.devRef .tc main_arg4) := by not_written hostOps0_1
theorem select_keeps_main_arg5 (V : Valuation τ sig (Elt Ideal)) :
    after hostOps0_1 V (no_index (Proc.devRef .tc main_arg5)) = V (Proc.devRef .tc main_arg5) := by not_written hostOps0_1

/-! ## The edges' weights -/

theorem weight_result (V : Valuation τ sig (Elt Ideal)) :
    after hostOps0_2 V (no_index (Proc.devRef .tc main_v29)) = GraphTerms.weight (V (Proc.devRef .tc main_v14)) (V (Proc.devRef .tc main_v3)) (V (Proc.devRef .tc main_v6)) := by
  conv_lhs => simp (disch := decide) only [hostOps0_2, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
theorem weight_keeps_main_v3 (V : Valuation τ sig (Elt Ideal)) :
    after hostOps0_2 V (no_index (Proc.devRef .tc main_v3)) = V (Proc.devRef .tc main_v3) := by not_written hostOps0_2
theorem weight_keeps_main_v6 (V : Valuation τ sig (Elt Ideal)) :
    after hostOps0_2 V (no_index (Proc.devRef .tc main_v6)) = V (Proc.devRef .tc main_v6) := by not_written hostOps0_2
theorem weight_keeps_main_arg0 (V : Valuation τ sig (Elt Ideal)) :
    after hostOps0_2 V (no_index (Proc.devRef .tc main_arg0)) = V (Proc.devRef .tc main_arg0) := by not_written hostOps0_2
theorem weight_keeps_main_arg2 (V : Valuation τ sig (Elt Ideal)) :
    after hostOps0_2 V (no_index (Proc.devRef .tc main_arg2)) = V (Proc.devRef .tc main_arg2) := by not_written hostOps0_2
theorem weight_keeps_main_arg3 (V : Valuation τ sig (Elt Ideal)) :
    after hostOps0_2 V (no_index (Proc.devRef .tc main_arg3)) = V (Proc.devRef .tc main_arg3) := by not_written hostOps0_2
theorem weight_keeps_main_arg4 (V : Valuation τ sig (Elt Ideal)) :
    after hostOps0_2 V (no_index (Proc.devRef .tc main_arg4)) = V (Proc.devRef .tc main_arg4) := by not_written hostOps0_2
theorem weight_keeps_main_arg5 (V : Valuation τ sig (Elt Ideal)) :
    after hostOps0_2 V (no_index (Proc.devRef .tc main_arg5)) = V (Proc.devRef .tc main_arg5) := by not_written hostOps0_2

/-! ## The first layer after its product -/

theorem layer256_result (V : Valuation τ sig (Elt Ideal)) :
    after hostOps1 V (no_index (Proc.devRef .tc main_v46)) = GraphTerms.layer256 (V (Proc.devRef .tc main_v30)) (V (Proc.devRef .tc main_v3)) (V (Proc.devRef .tc main_v6)) (V (Proc.devRef .tc main_v29)) (V (Proc.devRef .tc main_arg3)) := by
  conv_lhs => simp (disch := decide) only [hostOps1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
theorem layer256_keeps_main_v3 (V : Valuation τ sig (Elt Ideal)) :
    after hostOps1 V (no_index (Proc.devRef .tc main_v3)) = V (Proc.devRef .tc main_v3) := by not_written hostOps1
theorem layer256_keeps_main_v6 (V : Valuation τ sig (Elt Ideal)) :
    after hostOps1 V (no_index (Proc.devRef .tc main_v6)) = V (Proc.devRef .tc main_v6) := by not_written hostOps1
theorem layer256_keeps_main_v29 (V : Valuation τ sig (Elt Ideal)) :
    after hostOps1 V (no_index (Proc.devRef .tc main_v29)) = V (Proc.devRef .tc main_v29) := by not_written hostOps1
theorem layer256_keeps_main_arg4 (V : Valuation τ sig (Elt Ideal)) :
    after hostOps1 V (no_index (Proc.devRef .tc main_arg4)) = V (Proc.devRef .tc main_arg4) := by not_written hostOps1
theorem layer256_keeps_main_arg5 (V : Valuation τ sig (Elt Ideal)) :
    after hostOps1 V (no_index (Proc.devRef .tc main_arg5)) = V (Proc.devRef .tc main_arg5) := by not_written hostOps1

/-! ## The maximum with zero (a called function of three operations) -/

theorem relu_result (V : Valuation τ sig (Elt Ideal)) :
    after hostOps1_1 V (no_index (Proc.devRef .tc main_v47)) = GraphTerms.relu (V (Proc.devRef .tc main_v46)) := by
  conv_lhs => simp (disch := decide) only [hostOps1_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
theorem relu_keeps_main_v3 (V : Valuation τ sig (Elt Ideal)) :
    after hostOps1_1 V (no_index (Proc.devRef .tc main_v3)) = V (Proc.devRef .tc main_v3) := by not_written hostOps1_1
theorem relu_keeps_main_v6 (V : Valuation τ sig (Elt Ideal)) :
    after hostOps1_1 V (no_index (Proc.devRef .tc main_v6)) = V (Proc.devRef .tc main_v6) := by not_written hostOps1_1
theorem relu_keeps_main_v29 (V : Valuation τ sig (Elt Ideal)) :
    after hostOps1_1 V (no_index (Proc.devRef .tc main_v29)) = V (Proc.devRef .tc main_v29) := by not_written hostOps1_1
theorem relu_keeps_main_arg4 (V : Valuation τ sig (Elt Ideal)) :
    after hostOps1_1 V (no_index (Proc.devRef .tc main_arg4)) = V (Proc.devRef .tc main_arg4) := by not_written hostOps1_1
theorem relu_keeps_main_arg5 (V : Valuation τ sig (Elt Ideal)) :
    after hostOps1_1 V (no_index (Proc.devRef .tc main_arg5)) = V (Proc.devRef .tc main_arg5) := by not_written hostOps1_1

/-! ## The second layer after its product -/

theorem layer128_result (V : Valuation τ sig (Elt Ideal)) :
    after hostOps2 V (no_index (Proc.devRef .tc main_v64)) = GraphTerms.layer128 (V (Proc.devRef .tc main_v48)) (V (Proc.devRef .tc main_v3)) (V (Proc.devRef .tc main_v6)) (V (Proc.devRef .tc main_v29)) (V (Proc.devRef .tc main_arg5)) := by
  conv_lhs => simp (disch := decide) only [hostOps2, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

/-! ## The two regions -/

variable (m : (ℓ : Loc nD τ sig) → Buf (Elt Ideal) ℓ) (ρ : Dev nD → PrngReg)

/-- A buffer that is none of the second region's three arrays holds after the region what it held before. -/
theorem W7_other (c : Dev nD) (b : Ref sig .tc) (hb : ∀ w, Pipeline.arrRef spec1 w ≠ b) :
    W7 m ρ c (no_index (Proc.devRef .tc b)) = W6 m ρ c (Proc.devRef .tc b) := W7_of_ne m ρ c b hb
/-- The same for the first region. -/
theorem W4_other (c : Dev nD) (b : Ref sig .tc) (hb : ∀ w, Pipeline.arrRef spec0 w ≠ b) :
    W4 m ρ c (no_index (Proc.devRef .tc b)) = W3 m ρ c (Proc.devRef .tc b) := W4_of_ne m ρ c b hb
/-- The second region leaves its result buffer at the whole product of what it found in its two factor buffers. -/
theorem W7_result (c : Dev nD) : W7 m ρ c (no_index (Proc.devRef .tc main_v48))
    = Region1.product (W6 m ρ c (Proc.devRef .tc main_v47)) (W6 m ρ c (Proc.devRef .tc main_arg4)) :=
  (W7_arr m ρ c 2).trans (Region1.result (V6 m ρ) c)
/-- The first region likewise. -/
theorem W4_result (c : Dev nD) : W4 m ρ c (no_index (Proc.devRef .tc main_v30))
    = Region0.product (W3 m ρ c (Proc.devRef .tc main_arg0)) (W3 m ρ c (Proc.devRef .tc main_arg2)) :=
  (W4_arr m ρ c 2).trans (Region0.result (V3 m ρ) c)

/-! ## The two results are one term -/

set_option maxHeartbeats 40000000 in
/-- From memories that agree on the six arguments, the kernel's fold at the result buffer is the reference's result
    term: the fold composed stretch by stretch and region by region, the reference's term opened and the arguments'
    agreement rewritten; what remains are equal terms. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    W8 m ρ c (Proc.devRef .tc main_v64) = Cert.ReferenceIdeal.ValueP.res_main_v64 m' c := by
  unfold Cert.ReferenceIdeal.ValueP.res_main_v64
  rw [h0, h1, h2, h3, h4, h5]
  conv_lhs => simp (disch := decide) only [W8, W6, W5, W3, W2, W1,
      W7_other, W4_other, W7_result, W4_result,
      first_src, first_dst, first_positive, first_invSqrt, first_zero, first_keeps_main_arg0, first_keeps_main_arg2, first_keeps_main_arg3, first_keeps_main_arg4, first_keeps_main_arg5,
      select_result, select_keeps_main_v3, select_keeps_main_v6, select_keeps_main_arg0, select_keeps_main_arg2, select_keeps_main_arg3, select_keeps_main_arg4, select_keeps_main_arg5,
      weight_result, weight_keeps_main_v3, weight_keeps_main_v6, weight_keeps_main_arg0, weight_keeps_main_arg2, weight_keeps_main_arg3, weight_keeps_main_arg4, weight_keeps_main_arg5,
      layer256_result, layer256_keeps_main_v3, layer256_keeps_main_v6, layer256_keeps_main_v29, layer256_keeps_main_arg4, layer256_keeps_main_arg5,
      relu_result, relu_keeps_main_v3, relu_keeps_main_v6, relu_keeps_main_v29, relu_keeps_main_arg4, relu_keeps_main_arg5,
      layer128_result]

end Cert.KernelIdeal.KValue

end
-- ==== Proof.lean ====
/-
  A two-layer graph convolution: the kernel against its jnp reference, on the extended reals.

  Both programs compute, from node features x (100000 × 256), an edge list (2 × 300000) and two layers' weights and
  biases,
      layer(h, W, b) = scatter-add over target nodes of ( (h · W)[source node] · edge weight ) + b,
      result = layer( max(layer(x, W1, b1), 0), W2, b2 ),
  with self-loops appended to the edge list and the edge weight the product of the reciprocal square roots of the two
  end nodes' degrees (zero where the degree is not positive). The two programs are the SAME list of host operations
  except at the two dense products h · W: the reference takes each as one `dot_general`; the kernel takes each as a
  region of 50 grid points, point t multiplying rows 2000·t … 2000·t + 1999 of the left factor (narrowed to bf16, as the
  right factor is) by the whole right factor into a zero accumulator.
  On the extended reals the narrowing is the identity, and block t of what a region writes is block t of the whole
  product — each entry the same sum over the 256 positions of the shared axis — while the fifty blocks tile the rows:
  each region leaves exactly the reference's `dot_general` of the arrays it found (the modules on the two regions, over
  the module on the products as sums). Everything else is shared and is carried as it stands: the kernel's result,
  unwound through its segments, and the reference's are one composed term of the arguments (the module on the kernel's
  value). Only `0 + s = s` and a re-indexing of sums are used, which hold at infinite values too, so the precondition
  (finite inputs) is never opened.

  The claim's five parts: the word-level kernel's and the idealized kernel's frames are the generated ones; the
  reference's frame is its run with the result dropped; the idealization ledger is empty, so `preserves` is `True`;
  and `algebraic` sets the kernel's run (with its result named) beside the reference's run, both at the same value.
-/
import proofs.«100452_j84619445665914_1_alg».proof.Defs
import proofs.«100452_j84619445665914_1_alg».proof.Proof.Gen.Kernel
import proofs.«100452_j84619445665914_1_alg».proof.Proof.Gen.Kernel.Skeleton
import proofs.«100452_j84619445665914_1_alg».proof.Proof.Gen.Kernel.Launch
import proofs.«100452_j84619445665914_1_alg».proof.Proof.Gen.Kernel.Points
import proofs.«100452_j84619445665914_1_alg».proof.Proof.Gen.Kernel.Frame
import proofs.«100452_j84619445665914_1_alg».proof.Proof.Gen.KernelIdeal
import proofs.«100452_j84619445665914_1_alg».proof.Proof.Gen.KernelIdeal.Skeleton
import proofs.«100452_j84619445665914_1_alg».proof.Proof.Gen.KernelIdeal.Launch
import proofs.«100452_j84619445665914_1_alg».proof.Proof.Gen.KernelIdeal.Points
import proofs.«100452_j84619445665914_1_alg».proof.Proof.Gen.KernelIdeal.Frame
import proofs.«100452_j84619445665914_1_alg».proof.Proof.Gen.ReferenceIdeal
import proofs.«100452_j84619445665914_1_alg».proof.Proof.Gen.Pre_finite_inputs
import proofs.«100452_j84619445665914_1_alg».proof.Proof.RefRun
import proofs.«100452_j84619445665914_1_alg».proof.Proof.KRun
import proofs.«100452_j84619445665914_1_alg».proof.Proof.KValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing, so there is nothing to preserve. -/
theorem preserves : Cert.preserves_Kernel_KernelIdeal := trivial

/-- From memories agreeing on the six arguments both programs end, each with its arguments as launched, at ONE result:
    the kernel's fold at the result buffer, which is the reference's composed term. -/
theorem algebraic : Cert.algebraic_KernelIdeal_ReferenceIdeal := by
  intro m ρ m' ρ' _ hagree
  refine ⟨fun c => Cert.KernelIdeal.Gen.W8 m ρ c (Proc.devRef .tc Cert.KernelIdeal.main_v64),
    Cert.KernelIdeal.Run.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5⟩ := hagree c
  exact (Cert.KernelIdeal.KValue.result_eq m ρ m' c a0 a1 a2 a3 a4 a5).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
